-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x8 : Shape := ⟨3, ![128, 8192, 8]⟩
abbrev S_ : Shape := ⟨0, ![]⟩

class Facts : Prop where
  bcast_S_S128x8192x8 : S_.BroadcastsInDim S128x8192x8 (![] : Fin 0 → Fin S128x8192x8.rank)
  reducesTo_S128x8192x8_S_d0_1_2 : S128x8192x8.ReducesTo [0, 1, 2] S_
  h_S_ : 0 < S_.numel

variable [Facts]

def fn {F : FTy → Type} [FloatOps F] (main_arg0 : FVec F S128x8192x8 .f32) (main_arg1 : FVec F S128x8192x8 .f32) : IVec S_ 1 :=
  let main_v0 : FVec F S128x8192x8 .f32 := Host.absf main_arg0
  let main_cst : FVec F S_ .f32 := constant S_ .f32 0x7F800000#32
  let main_v1 : FVec F S128x8192x8 .f32 := broadcastInDim S128x8192x8 ![] bcast_S_S128x8192x8 main_cst
  let main_v2 : IVec S128x8192x8 1 := cmpf .olt main_v0 main_v1
  let main_c : IVec S_ 1 := constantI S_ 1 1#1
  let main_v3 : IVec S_ 1 := (fun x v => Host.reduce IntOp.andi x v reducesTo_S128x8192x8_S_d0_1_2 h_S_) main_v2 main_c
  let main_v4 : FVec F S128x8192x8 .f32 := Host.absf main_arg1
  let main_cst_0 : FVec F S_ .f32 := constant S_ .f32 0x7F800000#32
  let main_v5 : FVec F S128x8192x8 .f32 := broadcastInDim S128x8192x8 ![] bcast_S_S128x8192x8 main_cst_0
  let main_v6 : IVec S128x8192x8 1 := cmpf .olt main_v4 main_v5
  let main_c_1 : IVec S_ 1 := constantI S_ 1 1#1
  let main_v7 : IVec S_ 1 := (fun x v => Host.reduce IntOp.andi x v reducesTo_S128x8192x8_S_d0_1_2 h_S_) main_v6 main_c_1
  let main_v8 : IVec S_ 1 := andi main_v3 main_v7
  main_v8
-- ==== Kernel.lean ====
abbrev S128x8192x8 : Shape := ⟨3, ![128, 8192, 8]⟩
abbrev S2x1x1 : Shape := ⟨3, ![2, 1, 1]⟩
abbrev S64x128x8 : Shape := ⟨3, ![64, 128, 8]⟩
abbrev S1x1x1 : Shape := ⟨3, ![1, 1, 1]⟩
abbrev S64x128 : Shape := ⟨2, ![64, 128]⟩
abbrev S64x128x1 : Shape := ⟨3, ![64, 128, 1]⟩
abbrev S64x1 : Shape := ⟨2, ![64, 1]⟩
abbrev S64x1x1 : Shape := ⟨3, ![64, 1, 1]⟩
abbrev S1x1 : Shape := ⟨2, ![1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S128x8192x8, .f32⟩
  | .hbm, ⟨1, _⟩ => ⟨S128x8192x8, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S64x128x8, .f32⟩
  | .local _ .vmem, ⟨1, _⟩ => ⟨S64x128x8, .f32⟩
  | .local _ .vmem, ⟨2, _⟩ => ⟨S64x128x8, .f32⟩
  | .local _ .vmem, ⟨3, _⟩ => ⟨S64x128x8, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S128x8192x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v27 : BitVec 1 := Scalar.cmpi .eq arg1 c63_i32
  let v28 : BitVec 32 := Scalar.extui v27
  let c0_i32_16 : BitVec 32 := 0#32
  let v29 : BitVec 1 := Scalar.cmpi .ne v28 c0_i32_16
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S64x128x8_S64x128x8_0_0_0 : ∀ a, (![0, 0, 0] : Fin 3 → Nat) a + S64x128x8.size a ≤ S64x128x8.size a
  h_S64x128x8 : 0 < S64x128x8.numel
  natLt_1_32 : 1 < 32
  reduces_S64x128x8_S64x128 : S64x128x8.Reduces [2] S64x128
  shapeCasts_S64x128_S64x128x1 : S64x128.ShapeCasts S64x128x1
  reduces_S64x128x1_S64x1 : S64x128x1.Reduces [1] S64x1
  shapeCasts_S64x1_S64x1x1 : S64x1.ShapeCasts S64x1x1
  reduces_S64x1x1_S1x1 : S64x1x1.Reduces [0] S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x8.size a ≤ S128x8192x8.size a
  hwx0_0 : ∀ i : grid0.Coords, EltTy.bits .f32 = 32 ∨ (Rect.block (s := S128x8192x8) S64x128x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x8.size a ≤ S128x8192x8.size a
  hwx0_1 : ∀ i : grid0.Coords, EltTy.bits .f32 = 32 ∨ (Rect.block (s := S128x8192x8) S64x128x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S64x128x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x8192x8 : Shape := ⟨3, ![128, 8192, 8]⟩
abbrev S_ : Shape := ⟨0, ![]⟩
abbrev S128x8192 : Shape := ⟨2, ![128, 8192]⟩

abbrev nBuf : Space → Nat
  | .hbm => 16
  | .vmem => 0
  | .smem => 0
  | _ => 0

abbrev bufTy : (tb : Table) → Fin (tcTables nBuf tb) → BufTy
  | .hbm, ⟨0, _⟩ => ⟨S128x8192x8, .f32⟩
  | .hbm, ⟨1, _⟩ => ⟨S128x8192x8, .f32⟩
  | .hbm, ⟨2, _⟩ => ⟨S_, .f32⟩
  | .hbm, ⟨3, _⟩ => ⟨S128x8192x8, .f32⟩
  | .hbm, ⟨4, _⟩ => ⟨S128x8192x8, .i1⟩
  | .hbm, ⟨5, _⟩ => ⟨S128x8192x8, .f32⟩
  | .hbm, ⟨6, _⟩ => ⟨S128x8192x8, .i1⟩
  | .hbm, ⟨7, _⟩ => ⟨S_, .i1⟩
  | .hbm, ⟨8, _⟩ => ⟨S128x8192, .i1⟩
  | .hbm, ⟨9, _⟩ => ⟨S128x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | _, _ => ⟨S128x8192x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S_S128x8192x8 : S_.BroadcastsInDim S128x8192x8 (![] : Fin 0 → Fin S128x8192x8.rank)
  reducesTo_S128x8192x8_S128x8192_d2 : S128x8192x8.ReducesTo [2] S128x8192
  h_S_ : 0 < S_.numel
  reducesTo_S128x8192_S_d0_1 : S128x8192.ReducesTo [0, 1] S_

variable [Facts₀]

class Facts : Prop extends Facts₀ where

variable [Facts]
-- ==== Proof.Pieces.lean ====
/-
  What one grid point leaves behind, case by case.  The body keeps a one-entry running count in a scratch buffer.
  At the first point of a row of the grid it stores zero there, reads it back, and stores "that plus this point's
  count"; at every later point it reads what the previous point left and stores "that plus this point's count"; at
  the last point of the row it moreover copies the scratch buffer, as just stored, into the output block.  Each
  buffer is written through its whole extent, so what it holds afterwards is the last value stored.
-/
import proofs.«148461_j46325517254719_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0, 0] : Fin 3 → Nat) = fun _ => 0 := funext fun a => by fin_cases a <;> rfl

/-- A point in the middle of a row: the scratch buffer ends at the count it held plus this point's. -/
theorem scratch_mid (c : Dev nD) (i : grid0.Coords) (arg2 : Memref sig .tc .vmem S64x128x8 .f32) (harg2 : arg2.IsWhole) (arg3 : Memref sig .tc .vmem S64x128x8 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : ¬cond0_1 i)
    (x0 : Vec F S64x128x8 .f32) (x1 : Vec F S64x128x8 .f32) (xs0 : Vec F S1x1x1 .f32) :
    sout0_B_0 c i arg2 harg2 arg3 harg3 arg4 harg4 arg5 harg5 hc0 hc1 x0 x1 xs0 = k0_pay2 x1 x0 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread,
    View.ld_unit_zero (S := S64x128x8) hz, View.ld_unit_zero (S := S1x1x1) hz]

/-- The first point of a row: the scratch buffer ends at the zero just stored plus this point's count. -/
theorem scratch_first (c : Dev nD) (i : grid0.Coords) (arg2 : Memref sig .tc .vmem S64x128x8 .f32) (harg2 : arg2.IsWhole) (arg3 : Memref sig .tc .vmem S64x128x8 .f32) (harg3 : arg3.IsWhole) (arg4 : Memref sig .tc .vmem S1x1x1 .f32) (harg4 : arg4.IsWhole) (arg5 : Memref sig .tc .vmem S1x1x1 .f32) (harg5 : arg5.IsWhole) (hc0 : cond0_0 i) (hc1 : ¬cond0_1 i)
    (x0 : Vec F S64x128x8 .f32) (x1 : Vec F S64x128x8 .f32) :
    sout0_A_0 c i arg2 harg2 arg3 harg3 arg4 harg4 arg5 harg5 hc0 hc1 x0 x1 = k0_pay2 x1 x0 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1x1) hz, View.readCov_unit_zero (S := S1x1x1) _ hz]
  simp only [View.readAt_eq_ld, harg2.read_unread, harg3.read_unread,
    View.ld_unit_zero (S := S64x128x8) hz]

/-- The last point of a row: the scratch buffer ends as at a middle point, -/
theorem scratch_last (c : Dev nD) (i : grid0.Coords) (arg2 : Memref sig .tc .vmem S64x128x8 .f32) (harg2 : arg2.IsWhole) (arg3 : Memref sig .tc .vmem S64x128x8 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : cond0_1 i)
    (x0 : Vec F S64x128x8 .f32) (x1 : Vec F S64x128x8 .f32) (xs0 : Vec F S1x1x1 .f32) :
    sout0_C_0 c i arg2 harg2 arg3 harg3 arg4 harg4 arg5 harg5 hc0 hc1 x0 x1 xs0 = k0_pay2 x1 x0 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S64x128x8) hz, View.ld_unit_zero (S := S1x1x1) hz]

/-- and the output block receives that same value. -/
theorem out_last (c : Dev nD) (i : grid0.Coords) (arg2 : Memref sig .tc .vmem S64x128x8 .f32) (harg2 : arg2.IsWhole) (arg3 : Memref sig .tc .vmem S64x128x8 .f32) (harg3 : arg3.IsWhole) (arg4 : Memref sig .tc .vmem S1x1x1 .f32) (harg4 : arg4.IsWhole) (arg5 : Memref sig .tc .vmem S1x1x1 .f32) (harg5 : arg5.IsWhole) (hc0 : ¬cond0_0 i) (hc1 : cond0_1 i)
    (x0 : Vec F S64x128x8 .f32) (x1 : Vec F S64x128x8 .f32) (xs0 : Vec F S1x1x1 .f32) :
    out0_C_2 c i arg2 harg2 arg3 harg3 arg4 harg4 arg5 harg5 hc0 hc1 x0 x1 xs0 = k0_pay2 x1 x0 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1x1x1) _ hz]
  simp only [View.readAt_eq_ld, harg2.read_unread, harg3.read_unread, harg5.read_unread,
    View.ld_unit_zero (S := S64x128x8) hz, View.ld_unit_zero (S := S1x1x1) hz]

end Cert.KernelIdeal.Pieces

end
-- ==== Proof.Bits.lean ====
/-
  Truth bits as numbers.  A comparison yields a one-bit word; converted to a float (directly, or after widening
  to 32 bits) it is the number 1 when the bit is set and 0 otherwise.  Summing finitely many such numbers counts
  the set bits, so the sum over n positions equals n exactly when every bit is set; the same is said by the
  conjunction of the bits, folded with "and" from the bit 1.
-/
import Idealize.ShloMosaic.PureOps.Ideal
import Idealize.ShloMosaic.PureOps.Reduce

noncomputable section

namespace Cert.SSAcc

open Idealize.ShloMosaic

/-- The number a truth bit stands for: 1 when set, 0 otherwise. -/
def ind (b : BitVec 1) : EReal := if b = 1#1 then 1 else 0

theorem ind_one : ind 1#1 = 1 := by simp [ind]
theorem ind_zero : ind 0#1 = 0 := by simp [ind]

/-- A bit widened to 32 bits and read as a signed integer is that number. -/
theorem sitofp_setWidth (b : BitVec 1) : (((b.setWidth 32).toInt : ℝ) : EReal) = ind b := by
  rcases BitVec.eq_zero_or_eq_one b with h | h <;> subst h
  · rw [ind_zero, show ((0#1 : BitVec 1).setWidth 32).toInt = 0 from by decide]; simp
  · rw [ind_one, show ((1#1 : BitVec 1).setWidth 32).toInt = 1 from by decide]; simp

/-- A bit read as an unsigned integer is that number. -/
theorem uitofp_bit (b : BitVec 1) : ((b.toNat : ℝ) : EReal) = ind b := by
  rcases BitVec.eq_zero_or_eq_one b with h | h <;> subst h
  · rw [ind_zero, show (0#1 : BitVec 1).toNat = 0 from by decide]; simp
  · rw [ind_one, show (1#1 : BitVec 1).toNat = 1 from by decide]; simp

/-- The number of a bit as the cast of a natural number, 0 or 1. -/
theorem ind_eq_cast (b : BitVec 1) : ind b = (((if b = 1#1 then 1 else 0 : ℕ) : ℝ) : EReal) := by
  unfold ind; split <;> simp

/-- A finite sum of natural numbers, cast to the extended reals, is the sum of the casts. -/
theorem cast_sum {ι : Type} (s : Finset ι) (g : ι → ℕ) :
    ∑ k ∈ s, (((g k : ℕ) : ℝ) : EReal) = (((∑ k ∈ s, g k : ℕ) : ℝ) : EReal) := by
  classical
  induction s using Finset.induction_on with
  | empty => simp
  | insert a s ha ih => rw [Finset.sum_insert ha, Finset.sum_insert ha, ih, Nat.cast_add, EReal.coe_add]

/-- The sum of the bits' numbers is the count of set bits. -/
theorem sum_ind {n : ℕ} (f : Fin n → BitVec 1) :
    ∑ k : Fin n, ind (f k) = (((Finset.univ.filter fun k => f k = 1#1).card : ℝ) : EReal) := by
  simp only [ind_eq_cast]
  rw [cast_sum, Finset.sum_boole]
  simp

/-- So the sum over n positions is n exactly when every bit is set. -/
theorem sum_ind_eq_iff {n : ℕ} (f : Fin n → BitVec 1) :
    ∑ k : Fin n, ind (f k) = ((n : ℝ) : EReal) ↔ ∀ k, f k = 1#1 := by
  rw [sum_ind, EReal.coe_eq_coe_iff, Nat.cast_inj]
  constructor
  · intro h k
    have := (Finset.card_eq_iff_eq_univ _).mp (by rw [h, Fintype.card_fin])
    have hk : k ∈ Finset.univ.filter fun k => f k = 1#1 := by rw [this]; exact Finset.mem_univ k
    exact (Finset.mem_filter.mp hk).2
  · intro h
    rw [Finset.filter_true_of_mem fun k _ => h k, Finset.card_univ, Fintype.card_fin]

/-- The conjunction of bits, folded from the bit 1 over all positions, is set exactly when every bit is. -/
theorem fold_andi_eq_one_iff {ι : Type} [DecidableEq ι] (s : Finset ι) (f : ι → BitVec 1) :
    s.fold IntOp.andi 1#1 f = 1#1 ↔ ∀ k ∈ s, f k = 1#1 := by
  induction s using Finset.induction_on with
  | empty => simp
  | insert a s ha ih =>
    rw [Finset.fold_insert ha]
    constructor
    · intro h k hk
      have h2 : f a = 1#1 ∧ s.fold IntOp.andi 1#1 f = 1#1 := by
        revert h; generalize s.fold IntOp.andi 1#1 f = y
        rcases BitVec.eq_zero_or_eq_one (f a) with e | e <;> rcases BitVec.eq_zero_or_eq_one y with e' | e' <;>
          rw [e, e'] <;> decide
      rcases Finset.mem_insert.mp hk with rfl | hk
      · exact h2.1
      · exact ih.mp h2.2 k hk
    · intro h
      rw [h a (Finset.mem_insert_self a s), ih.mpr fun k hk => h k (Finset.mem_insert_of_mem hk)]
      decide

end Cert.SSAcc

end
-- ==== Proof.RowSpec.lean ====
/-
  The quantity both programs count.  An entry is a hit when its label equals the thresholded prediction
  ("prediction > 1/2", as the number 0 or 1).  A row of eight entries is counted when all eight are hits; the
  kernel tests this by adding the eight hits as numbers and comparing the sum with 8, the reference by folding the
  eight truth bits with "and".  The two tests give the same bit.  The loss is then one fixed function of the
  number of counted rows: 1 minus that number (added to zero) divided by 2^20.
-/
import proofs.«148461_j46325517254719_2_alg».proof.Proof.Bits
import Idealize.ShloMosaic.Lib.ValueIdx

noncomputable section

namespace Cert.SSAcc

open Idealize.ShloMosaic Idealize.ShloMosaic.ValueIdx

/-- The threshold 1/2 and the row length 8, as the words both programs spell. -/
abbrev half : EReal := Ideal.ofBits .f32 0x3F000000#32
abbrev eight : EReal := Ideal.ofBits .f32 0x41000000#32

/-- The word for 8 denotes the number 8. -/
theorem eight_eq : eight = (((8 : ℕ) : ℝ) : EReal) := by
  simp [eight, Ideal.ofBits, Ideal.ieee, -EReal.coe_mul]; norm_num

/-- One entry: does the label r equal the thresholded prediction p? As a truth bit, and as a number. -/
def hitBit (p r : EReal) : BitVec 1 := Ideal.cmp .oeq r (ind (Ideal.cmp .ogt p half))
def hit (p r : EReal) : EReal := ind (hitBit p r)

/-- One row (r, s) of an array of predictions P and labels R with eight entries per row: do the eight hits,
    added as numbers, make 8? As a number. -/
def rowOK {n0 n1 : ℕ} (P R : (⟨3, ![n0, n1, 8]⟩ : Shape).Idx → EReal) (r : Fin n0) (s : Fin n1) : EReal :=
  ind (Ideal.cmp .oeq (∑ c : Fin 8, hit (P (ix3 r s c)) (R (ix3 r s c))) eight)

/-- Two truth bits that are set together are equal. -/
theorem bit_ext : ∀ a b : BitVec 1, (a = 1#1 ↔ b = 1#1) → a = b := by decide

/-- An equality test is set exactly when its operands are equal. -/
theorem cmp_oeq_eq_one (x y : EReal) : Ideal.cmp .oeq x y = 1#1 ↔ x = y := by
  show BitVec.ofBool (decide (x = y)) = 1#1 ↔ x = y
  by_cases h : x = y <;> simp [h]

/-- The kernel's test of a row ("the hits sum to 8") is the reference's ("every entry is a hit"). -/
theorem rowOK_eq_fold {n0 n1 : ℕ} (P R : (⟨3, ![n0, n1, 8]⟩ : Shape).Idx → EReal) (r : Fin n0) (s : Fin n1) :
    rowOK P R r s
      = ind ((Finset.univ : Finset (Fin 8)).fold IntOp.andi 1#1 fun c => hitBit (P (ix3 r s c)) (R (ix3 r s c))) := by
  unfold rowOK
  refine congrArg ind (bit_ext _ _ ?_)
  rw [cmp_oeq_eq_one, eight_eq, fold_andi_eq_one_iff]
  unfold hit
  rw [sum_ind_eq_iff]
  exact ⟨fun h k _ => h k, fun h k => h k (Finset.mem_univ k)⟩

/-- The loss as a function of the number of counted rows: 1 − (0 + count) / 2^20, in the words both programs spell. -/
def lossOf (count : EReal) : (⟨0, ![]⟩ : Shape).Idx → EReal := fun _ =>
  Ideal.ofBits .f32 0x3F800000#32 - Ideal.div (Ideal.ofBits .f32 0x00000000#32 + count) (Ideal.ofBits .f32 0x49800000#32)

end Cert.SSAcc

end
-- ==== Proof.BlockCount.lean ====
/-
  The arithmetic of one grid point.  From a block of predictions P and a block of labels R, both 64 × 128 × 8,
  the kernel forms the bit "P > 1/2" as a number, compares it with R, turns the outcome into a number again, adds
  the eight numbers of a row, asks whether that sum is 8, turns the answer into a number, and adds these numbers
  over the 128 rows of a slab and then over the 64 slabs; the total is added to the running count it was handed.
  Read index by index: the new running count is the old one plus the number of rows (r, s) of the block whose eight
  comparisons all succeed.
-/
import proofs.«148461_j46325517254719_2_alg».proof.Proof.Gen.KernelIdeal.Skeleton
import proofs.«148461_j46325517254719_2_alg».proof.Proof.RowSpec
import Idealize.ShloMosaic.Lib.ValueIdx
import Idealize.ShloMosaic.Lib.Pipeline.Value
import Idealize.ShloMosaic.PureOps.Ideal.Laws

noncomputable section

namespace Cert.KernelIdeal.Count

open Idealize.ShloMosaic Idealize.ShloMosaic.ValueIdx Cert.KernelIdeal Cert.KernelIdeal.Gen Cert.SSAcc

/-- The rows of a block of predictions P and labels R that are counted, slab by slab. -/
def blockCount (P R : S64x128x8.Idx → EReal) : EReal :=
  ∑ r : Fin 64, ∑ s : Fin 128, rowOK (n0 := 64) (n1 := 128) P R r s

/-- The comparisons of a block as numbers, entry by entry. -/
theorem hits_apply (P R : FVec Ideal S64x128x8 .f32) (h : 1 < 32) (i : S64x128x8.Idx) :
    (sitofp .f32 (extui 32 (cmpf .oeq R (sitofp .f32 (extui 32 (cmpf .ogt P
      (broadcast S64x128x8 (Scalar.ofBits .f32 0x3F000000#32))) h))) h) : FVec Ideal S64x128x8 .f32) i
      = hit (P i) (R i) := by
  show ((((Ideal.cmp .oeq (R i) ((((Ideal.cmp .ogt (P i) half).setWidth 32).toInt : ℝ) : EReal)).setWidth 32).toInt : ℝ) : EReal) = _
  rw [sitofp_setWidth, sitofp_setWidth]
  rfl

/-- Where the index of a slab-and-row pair sits once the lane coordinate c is put back. -/
theorem lift2 (h : S64x128x8.Reduces [2] S64x128) (r : Fin 64) (s : Fin 128) (c : Fin 8) :
    h.lift (ix2 r s) c = ix3 r s c := by
  funext a; match a with | ⟨0, _⟩ => exact Fin.ext rfl | ⟨1, _⟩ => exact Fin.ext rfl | ⟨2, _⟩ => exact Fin.ext rfl

theorem lift1 (h : S64x128x1.Reduces [1] S64x1) (r : Fin 64) (s : Fin 128) :
    h.lift (ix2 r (0 : Fin 1)) s = ix3 r s (0 : Fin 1) := by
  funext a; match a with | ⟨0, _⟩ => exact Fin.ext rfl | ⟨1, _⟩ => exact Fin.ext rfl | ⟨2, _⟩ => exact Fin.ext rfl

theorem lift0 (h : S64x1x1.Reduces [0] S1x1) (r : Fin 64) :
    h.lift (ix2 (0 : Fin 1) (0 : Fin 1)) r = ix3 r (0 : Fin 1) (0 : Fin 1) := by
  funext a; match a with | ⟨0, _⟩ => exact Fin.ext rfl | ⟨1, _⟩ => exact Fin.ext rfl | ⟨2, _⟩ => exact Fin.ext rfl

/-- A sum along the last axis of a 64 × 128 × 8 block, read at (r, s). -/
theorem laneSum_apply (x : FVec Ideal S64x128x8 .f32) (h : S64x128x8.Reduces [2] S64x128) (hφ : FKind.Formats .f32)
    (hacc : (0x00000000#32 : BitVec 32) = FKind.add.neutral .f32 hφ) (r : Fin 64) (s : Fin 128) :
    multiReduction .add [2] S64x128 x 0x00000000#32 h hφ hacc (ix2 r s) = ∑ c : Fin 8, x (ix3 r s c) := by
  refine (Ideal.multiReduction_add_single x _ h hφ hacc (ix2 r s)).trans ?_
  show ∑ c : Fin 8, x (h.lift (ix2 r s) c) = _
  exact Finset.sum_congr rfl fun c _ => by rw [lift2]

/-- A sum along the middle axis of a 64 × 128 × 1 block, read at (r, 0). -/
theorem rowSum_apply (x : FVec Ideal S64x128x1 .f32) (h : S64x128x1.Reduces [1] S64x1) (hφ : FKind.Formats .f32)
    (hacc : (0x00000000#32 : BitVec 32) = FKind.add.neutral .f32 hφ) (r : Fin 64) :
    multiReduction .add [1] S64x1 x 0x00000000#32 h hφ hacc (ix2 r (0 : Fin 1)) = ∑ s : Fin 128, x (ix3 r s (0 : Fin 1)) := by
  refine (Ideal.multiReduction_add_single x _ h hφ hacc (ix2 r (0 : Fin 1))).trans ?_
  show ∑ s : Fin 128, x (h.lift (ix2 r (0 : Fin 1)) s) = _
  exact Finset.sum_congr rfl fun s _ => by rw [lift1]

/-- A sum along the first axis of a 64 × 1 × 1 block, read at (0, 0). -/
theorem slabSum_apply (x : FVec Ideal S64x1x1 .f32) (h : S64x1x1.Reduces [0] S1x1) (hφ : FKind.Formats .f32)
    (hacc : (0x00000000#32 : BitVec 32) = FKind.add.neutral .f32 hφ) :
    multiReduction .add [0] S1x1 x 0x00000000#32 h hφ hacc (ix2 (0 : Fin 1) (0 : Fin 1)) = ∑ r : Fin 64, x (ix3 r (0 : Fin 1) (0 : Fin 1)) := by
  refine (Ideal.multiReduction_add_single x _ h hφ hacc (ix2 (0 : Fin 1) (0 : Fin 1))).trans ?_
  show ∑ r : Fin 64, x (h.lift (ix2 (0 : Fin 1) (0 : Fin 1)) r) = _
  exact Finset.sum_congr rfl fun r _ => by rw [lift0]

/-- Appending a unit axis to a matrix changes no entry. -/
theorem cast_ab_ab1 {a b : ℕ} {α : Type} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu]; omega)

/-- THE POINT'S ARITHMETIC: the stored running count is the one read plus the block's count of hit rows. -/
theorem pay2_apply (P R : Vec Ideal S64x128x8 .f32) (acc : Vec Ideal S1x1x1 .f32) (j : S1x1x1.Idx) :
    k0_pay2 (F := Ideal) P R acc j = acc j + blockCount P R := by
  obtain rfl : j = ix3 (0 : Fin 1) (0 : Fin 1) (0 : Fin 1) := by
    funext a
    match a with
    | ⟨0, _⟩ => exact Fin.ext (by show (j 0).val = 0; have : (j 0).val < 1 := (j 0).isLt; omega)
    | ⟨1, _⟩ => exact Fin.ext (by show (j 1).val = 0; have : (j 1).val < 1 := (j 1).isLt; omega)
    | ⟨2, _⟩ => exact Fin.ext (by show (j 2).val = 0; have : (j 2).val < 1 := (j 2).isLt; omega)
  unfold k0_pay2
  refine (congrFun (shapeCast_self _ _) _).trans ?_
  refine congrArg (acc (ix3 (0 : Fin 1) (0 : Fin 1) (0 : Fin 1)) + ·) ?_
  refine (cast_ab_ab1 _ _ (0 : Fin 1) (0 : Fin 1) (0 : Fin 1)).trans ?_
  refine (slabSum_apply _ _ _ _).trans ?_
  refine Finset.sum_congr rfl fun r _ => ?_
  refine (cast_ab_ab1 _ _ r (0 : Fin 1) (0 : Fin 1)).trans ?_
  refine (rowSum_apply _ _ _ _ r).trans ?_
  refine Finset.sum_congr rfl fun s _ => ?_
  show ((((Ideal.cmp .oeq (shapeCast S64x128x1 _ _ (ix3 r s (0 : Fin 1))) eight).setWidth 32).toInt : ℝ) : EReal) = rowOK (n0 := 64) (n1 := 128) P R r s
  rw [sitofp_setWidth]
  unfold rowOK
  refine congrArg (fun z => ind (Ideal.cmp .oeq z eight)) ?_
  refine (cast_ab_ab1 _ _ r s (0 : Fin 1)).trans ?_
  refine (laneSum_apply _ _ _ _ r s).trans ?_
  exact Finset.sum_congr rfl fun c _ => hits_apply P R _ (ix3 r s c)

end Cert.KernelIdeal.Count

end
-- ==== Proof.Accum.lean ====
/-
  The running count along a row of the grid.  The 128 grid points are walked in order; points 64·b, …, 64·b + 63
  form row b.  Write cnt n for the number of counted rows in point n's blocks.  After point n the scratch buffer
  holds cnt n when n starts a row, and otherwise what it held after point n − 1 plus cnt n; so after the point at
  offset l of row b it holds cnt (64·b) + … + cnt (64·b + l).  The last point of a row also hands that sum — the
  count of the whole row of the grid — to the output block.
-/
import proofs.«148461_j46325517254719_2_alg».proof.Proof.Pieces
import proofs.«148461_j46325517254719_2_alg».proof.Proof.BlockCount

noncomputable section

namespace Cert.KernelIdeal.Accum

open Idealize.ShloMosaic Idealize.ShloMosaic.TcCoe Idealize.SL.Sem Cert.KernelIdeal Cert.KernelIdeal.Gen
open Cert.KernelIdeal.Count

variable (m : (ℓ : Loc nD τ sig) → Buf (Elt Ideal) ℓ)

/-- The zero the first point of a row stores is the number 0. -/
theorem pay1_zero (j : S1x1x1.Idx) : k0_pay1 (F := Ideal) j = 0 := by
  unfold k0_pay1
  refine (congrFun (shapeCast_self _ _) j).trans ?_
  exact Ideal.ofBits_zero_f32

/-- The count of point t's blocks (labels through window 0, predictions through window 1). -/
def cntAt (c : Dev nD) (t : Fin cfg0.N) : EReal := blockCount (iblk m c 1 t) (iblk m c 0 t)

/-- After the first point of a row the scratch buffer holds that point's count. -/
theorem scratch_at_first (c : Dev nD) (t : Fin cfg0.N) (h0 : t.val % 64 = 0) (h1 : ¬t.val % 64 = 63) (j : S1x1x1.Idx) :
    (outsAt0 m c t.val t.isLt).2 j = cntAt m c t := by
  rw [outsAt0_A m c t h0 h1]
  dsimp only
  refine (congrFun (Pieces.scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) j).trans ?_
  refine (pay2_apply _ _ _ j).trans ?_
  rw [pay1_zero, zero_add]
  rfl

/-- After a middle point it holds what the point before left plus this point's count. -/
theorem scratch_at_mid (c : Dev nD) (t : Fin cfg0.N) (h0 : ¬t.val % 64 = 0) (h1 : ¬t.val % 64 = 63) (j : S1x1x1.Idx) :
    (outsAt0 m c t.val t.isLt).2 j
      = (outsAt0 m c (t.val - 1) (Nat.lt_of_le_of_lt (Nat.sub_le _ _) t.isLt)).2 j + cntAt m c t := by
  rw [outsAt0_B m c t h0 h1]
  dsimp only
  refine (congrFun (Pieces.scratch_mid (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) j).trans ?_
  exact pay2_apply _ _ _ j

/-- After the last point of a row likewise, -/
theorem scratch_at_last (c : Dev nD) (t : Fin cfg0.N) (h0 : ¬t.val % 64 = 0) (h1 : t.val % 64 = 63) (j : S1x1x1.Idx) :
    (outsAt0 m c t.val t.isLt).2 j
      = (outsAt0 m c (t.val - 1) (Nat.lt_of_le_of_lt (Nat.sub_le _ _) t.isLt)).2 j + cntAt m c t := by
  rw [outsAt0_C m c t h0 h1]
  dsimp only
  refine (congrFun (Pieces.scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) j).trans ?_
  exact pay2_apply _ _ _ j

/-- and the output block receives the same value. -/
theorem out_at_last (c : Dev nD) (t : Fin cfg0.N) (h0 : ¬t.val % 64 = 0) (h1 : t.val % 64 = 63) (j : S1x1x1.Idx) :
    (outsAt0 m c t.val t.isLt).1 j
      = (outsAt0 m c (t.val - 1) (Nat.lt_of_le_of_lt (Nat.sub_le _ _) t.isLt)).2 j + cntAt m c t := by
  rw [outsAt0_C m c t h0 h1]
  dsimp only
  refine (congrFun (Pieces.out_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) j).trans ?_
  exact pay2_apply _ _ _ j

/-- The count of point n, by its number; zero past the grid. -/
def cnt (c : Dev nD) (n : ℕ) : EReal := if h : n < cfg0.N then cntAt m c ⟨n, h⟩ else 0

theorem cnt_of_lt (c : Dev nD) (n : ℕ) (h : n < cfg0.N) : cnt m c n = cntAt m c ⟨n, h⟩ := dif_pos h

/-- THE RUNNING COUNT: after point n the scratch buffer holds the counts of the points of n's row up to n. -/
theorem scratch_eq (c : Dev nD) : ∀ (n : ℕ) (h : n < cfg0.N) (j : S1x1x1.Idx),
    (outsAt0 m c n h).2 j = ∑ l ∈ Finset.range (n % 64 + 1), cnt m c (n - n % 64 + l)
  | 0, h, j => by
    rw [scratch_at_first m c ⟨0, h⟩ rfl (by show ¬(0 % 64 = 63); decide) j, ← cnt_of_lt m c 0 h]
    simp
  | n + 1, h, j => by
    by_cases h0 : (n + 1) % 64 = 0
    · have h1 : ¬(n + 1) % 64 = 63 := by omega
      rw [scratch_at_first m c ⟨n + 1, h⟩ h0 h1 j, ← cnt_of_lt m c (n + 1) h, h0]
      simp
    · have hstep : (outsAt0 m c (n + 1) h).2 j
          = (outsAt0 m c n (Nat.lt_of_succ_lt h)).2 j + cnt m c (n + 1) := by
        rw [cnt_of_lt m c (n + 1) h]
        by_cases h1 : (n + 1) % 64 = 63
        · exact scratch_at_last m c ⟨n + 1, h⟩ h0 h1 j
        · exact scratch_at_mid m c ⟨n + 1, h⟩ h0 h1 j
      rw [hstep, scratch_eq c n (Nat.lt_of_succ_lt h) j]
      have e1 : (n + 1) % 64 = n % 64 + 1 := by omega
      have e2 : n + 1 - (n % 64 + 1) = n - n % 64 := by omega
      rw [e1, e2, Finset.sum_range_succ _ (n % 64 + 1)]
      congr 2
      omega

/-- THE ROW'S COUNT: at the last point of a row the output block receives the counts of all 64 points of the row. -/
theorem out_eq (c : Dev nD) (t : Fin cfg0.N) (h1 : t.val % 64 = 63) (j : S1x1x1.Idx) :
    (outsAt0 m c t.val t.isLt).1 j = ∑ l ∈ Finset.range 64, cnt m c (t.val - 63 + l) := by
  have h0 : ¬t.val % 64 = 0 := by omega
  rw [out_at_last m c t h0 h1 j, scratch_eq m c (t.val - 1) _ j, ← cnt_of_lt m c t.val t.isLt]
  have e1 : (t.val - 1) % 64 + 1 = 63 := by omega
  have e2 : t.val - 1 - (t.val - 1) % 64 = t.val - 63 := by omega
  rw [e1, e2, Finset.sum_range_succ _ 63]
  congr 2
  omega

end Cert.KernelIdeal.Accum

end
-- ==== Proof.Regroup.lean ====
/-
  Regrouping the rows.  The 128 × 8192 rows of the arrays are cut into 2 × 64 tiles of 64 × 128 rows: row (p, q)
  is row (r, s) of tile (b, l) with p = 64·b + r and q = 128·l + s, uniquely.  Hence a sum over all rows is the
  sum over the tiles of the sums over each tile's rows — in any order of the four coordinates, since addition in
  a commutative monoid may be regrouped freely.
-/
import Idealize.ShloMosaic.Lib.ValueIdx

noncomputable section

open scoped BigOperators

namespace Cert.SSAcc

/-- Position j of block i, among a blocks of b positions each. -/
def blockIx {a b : ℕ} (i : Fin a) (j : Fin b) : Fin (a * b) :=
  ⟨b * i.val + j.val, by
    have hi := i.isLt
    have hj := j.isLt
    calc b * i.val + j.val < b * i.val + b := by omega
      _ = b * (i.val + 1) := by ring
      _ ≤ b * a := Nat.mul_le_mul_left _ (by omega)
      _ = a * b := Nat.mul_comm _ _⟩

/-- A sum over a·b positions is the sum over the a blocks of the sums over each block's b positions. -/
theorem sum_blocks {M : Type*} [AddCommMonoid M] (a b : ℕ) (g : Fin (a * b) → M) :
    ∑ p, g p = ∑ i : Fin a, ∑ j : Fin b, g (blockIx i j) := by
  rw [← Equiv.sum_comp finProdFinEquiv g, Fintype.sum_prod_type]
  refine Finset.sum_congr rfl fun i _ => Finset.sum_congr rfl fun j _ => congrArg g (Fin.ext ?_)
  show j.val + b * i.val = b * i.val + j.val
  exact Nat.add_comm _ _

/-- Row r of tile row b, and column s of tile column l. -/
def rowIx (b : Fin 2) (r : Fin 64) : Fin 128 := blockIx (a := 2) (b := 64) b r
def colIx (l : Fin 64) (s : Fin 128) : Fin 8192 := blockIx (a := 64) (b := 128) l s

theorem rowIx_val (b : Fin 2) (r : Fin 64) : (rowIx b r).val = 64 * b.val + r.val := rfl
theorem colIx_val (l : Fin 64) (s : Fin 128) : (colIx l s).val = 128 * l.val + s.val := rfl

/-- THE REGROUPING: all rows, tile by tile. -/
theorem regroup {M : Type*} [AddCommMonoid M] (f : Fin 128 → Fin 8192 → M) :
    ∑ p : Fin 128, ∑ q : Fin 8192, f p q
      = ∑ b : Fin 2, ∑ l : Fin 64, ∑ r : Fin 64, ∑ s : Fin 128, f (rowIx b r) (colIx l s) := by
  rw [sum_blocks 2 64 (fun p : Fin 128 => ∑ q : Fin 8192, f p q)]
  refine Finset.sum_congr rfl fun b _ => ?_
  have h : ∀ r : Fin 64, ∑ q : Fin 8192, f (rowIx b r) q = ∑ l : Fin 64, ∑ s : Fin 128, f (rowIx b r) (colIx l s) :=
    fun r => sum_blocks 64 128 (fun q : Fin 8192 => f (rowIx b r) q)
  show ∑ r : Fin 64, ∑ q : Fin 8192, f (rowIx b r) q = _
  rw [Finset.sum_congr rfl fun r _ => h r]
  exact Finset.sum_comm

end Cert.SSAcc

end
-- ==== Proof.Blocks.lean ====
/-
  Where a block sits.  Grid point t = 64·b + l fetches, from each of the two 128 × 8192 × 8 arrays, the block with
  block index (b, l, 0) of extent 64 × 128 × 8: entry (r, s, k) of the block is entry (64·b + r, 128·l + s, k) of
  the array.  Hence the counted rows of the point's blocks are the counted rows of tile (b, l) of the arrays.
-/
import proofs.«148461_j46325517254719_2_alg».proof.Proof.Gen.KernelIdeal.Frame
import proofs.«148461_j46325517254719_2_alg».proof.Proof.BlockCount
import proofs.«148461_j46325517254719_2_alg».proof.Proof.Regroup

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Count Cert.SSAcc

variable (m : (ℓ : Loc nD τ sig) → Buf (Elt Ideal) ℓ)

/-- The printed index maps, decided once over the grid: at point t the inputs' block index is (t / 64, t % 64, 0)
    and the output's is (t / 64, 0, 0). -/
theorem idx_facts : ∀ t : Fin cfg0.N,
    win0_0.index t (0 : Fin 3) = t.val / 64 ∧ win0_0.index t (1 : Fin 3) = t.val % 64 ∧ win0_0.index t (2 : Fin 3) = 0
    ∧ win0_1.index t (0 : Fin 3) = t.val / 64 ∧ win0_1.index t (1 : Fin 3) = t.val % 64 ∧ win0_1.index t (2 : Fin 3) = 0
    ∧ win0_2.index t (0 : Fin 3) = t.val / 64 ∧ win0_2.index t (1 : Fin 3) = 0 ∧ win0_2.index t (2 : Fin 3) = 0 :=
  (by decide +kernel : ∀ t : Fin grid0.N, _)

/-- An entry of the labels' block at point t = 64·b + l is the array's entry in tile (b, l). -/
theorem labels_apply (c : Dev nD) (t : Fin cfg0.N) (b : Fin 2) (l : Fin 64) (ht : t.val = 64 * b.val + l.val)
    (r : Fin 64) (s : Fin 128) (k : Fin 8) :
    (iblk m c 0 t : Vec Ideal S64x128x8 .f32) (ix3 r s k)
      = m ((c : Thread nD τ).loc main_arg0) (ix3 (rowIx b r) (colIx l s) k) := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 3) * 64 + 1 * r.val = 64 * b.val + r.val; have := l.isLt; omega
  | ⟨1, _⟩ => show win0_0.index t (1 : Fin 3) * 128 + 1 * s.val = 128 * l.val + s.val; have := l.isLt; omega
  | ⟨2, _⟩ => show win0_0.index t (2 : Fin 3) * 8 + 1 * k.val = k.val; omega

/-- The same for the predictions' block. -/
theorem preds_apply (c : Dev nD) (t : Fin cfg0.N) (b : Fin 2) (l : Fin 64) (ht : t.val = 64 * b.val + l.val)
    (r : Fin 64) (s : Fin 128) (k : Fin 8) :
    (iblk m c 1 t : Vec Ideal S64x128x8 .f32) (ix3 r s k)
      = m ((c : Thread nD τ).loc main_arg1) (ix3 (rowIx b r) (colIx l s) k) := by
  obtain ⟨-, -, -, e0, e1, e2, -⟩ := idx_facts t
  unfold iblk
  rw [View.read_apply]
  show V m c main_arg1 _ = m (c.tc.loc main_arg1) _
  unfold V
  congr 1
  funext a
  apply Fin.ext
  match a with
  | ⟨0, _⟩ => show win0_1.index t (0 : Fin 3) * 64 + 1 * r.val = 64 * b.val + r.val; have := l.isLt; omega
  | ⟨1, _⟩ => show win0_1.index t (1 : Fin 3) * 128 + 1 * s.val = 128 * l.val + s.val; have := l.isLt; omega
  | ⟨2, _⟩ => show win0_1.index t (2 : Fin 3) * 8 + 1 * k.val = k.val; omega

/-- THE POINT'S COUNT IN THE ARRAYS: the counted rows of point 64·b + l's blocks are those of tile (b, l). -/
theorem blockCount_eq (c : Dev nD) (t : Fin cfg0.N) (b : Fin 2) (l : Fin 64) (ht : t.val = 64 * b.val + l.val) :
    blockCount (iblk m c 1 t) (iblk m c 0 t)
      = ∑ r : Fin 64, ∑ s : Fin 128, rowOK (n0 := 128) (n1 := 8192) (m ((c : Thread nD τ).loc main_arg1))
          (m ((c : Thread nD τ).loc main_arg0)) (rowIx b r) (colIx l s) := by
  unfold blockCount
  refine Finset.sum_congr rfl fun r _ => Finset.sum_congr rfl fun s _ => ?_
  unfold rowOK
  refine congrArg (fun z => ind (Ideal.cmp .oeq z eight)) (Finset.sum_congr rfl fun k _ => ?_)
  exact congrArg₂ hit (preds_apply m c t b l ht r s k) (labels_apply m c t b l ht r s k)

end Cert.KernelIdeal.Blocks

end
-- ==== Proof.KernelValue.lean ====
/-
  The kernel's result.  The output array has two entries, one per row of the grid; entry b is written once, at the
  last point of row b, with the count of the whole row: the sum of the counts of its 64 points.  The host lines after
  the kernel add the two entries to zero, divide by 2^20 and subtract the quotient from 1: the loss of the total count.
-/
import proofs.«148461_j46325517254719_2_alg».proof.Proof.Accum
import proofs.«148461_j46325517254719_2_alg».proof.Proof.Blocks
import Idealize.ShloMosaic.Lib.StableHlo.Run

noncomputable section

namespace Cert.KernelIdeal.KernelValue

open Idealize.ShloMosaic Idealize.ShloMosaic.TcCoe Idealize.ShloMosaic.ValueIdx Idealize.SL.Sem
open Cert.KernelIdeal Cert.KernelIdeal.Gen Cert.KernelIdeal.Count Cert.KernelIdeal.Accum Cert.KernelIdeal.Blocks Cert.SSAcc
open Idealize.ShloMosaic.Pipeline (Dat)

variable (m : (ℓ : Loc nD τ sig) → Buf (Elt Ideal) ℓ) (ρ : Dev nD → PrngReg)

/-- What the output array ends holding: at entry b the counts of the 64 points of row b of the grid. -/
def rowTotals (c : Dev nD) : S2x1x1.Idx → EReal := fun i => ∑ l ∈ Finset.range 64, cnt m c (64 * (i 0).val + l)

/-- What a last point of a row writes back is its entry of `rowTotals`. -/
theorem flushed_eq (c : Dev nD) (t : Fin cfg0.N) (hf : (cfg0.win 2).flush t = true) :
    (dats m 0 c).flushed 2 t = ((cfg0.win 2).blk t).view.read (Elt Ideal) (rowTotals m c) := by
  have h1 : t.val % 64 = 63 := (flush0_2 t).mp hf
  obtain ⟨-, -, -, -, -, -, e0, e1, e2⟩ := idx_facts t
  show (cfg0.win 2).cut (grid0.coords t) ((dats m 0 c).after 2 t) = _
  rw [after0_2]
  funext y
  show (outsAt0 m c t.val t.isLt).1 y = rowTotals m c (((cfg0.win 2).blk t).view.emb y)
  rw [out_eq m c t h1 y]
  unfold rowTotals
  have hy : (y 0).val < 1 := (y 0).isLt
  have e : ((((cfg0.win 2).blk t).view.emb y) 0).val = t.val / 64 := by
    show win0_2.index t (0 : Fin 3) * 1 + 1 * (y 0).val = _
    omega
  rw [e]
  refine Finset.sum_congr rfl fun l _ => congrArg (cnt m c) ?_
  omega

/-- An index of the output array is in point t's block iff each coordinate is in the block's range. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- Every entry is written: entry b at the last point of row b. -/
theorem cover (i : S2x1x1.Idx) : ∃ t : Fin cfg0.N, (cfg0.win 2).flush t = true ∧ i ∈ ((cfg0.win 2).blk t).view.set := by
  have hN : cfg0.N = 128 := N_0
  have h0 : (i 0).val < 2 := (i 0).isLt
  have h1 : (i 1).val < 1 := (i 1).isLt
  have h2 : (i 2).val < 1 := (i 2).isLt
  refine ⟨⟨64 * (i 0).val + 63, by omega⟩, (flush0_2 _).mpr (by show (64 * (i 0).val + 63) % 64 = 63; omega), ?_⟩
  rw [mem_blk]
  obtain ⟨-, -, -, -, -, -, e0, e1, e2⟩ := idx_facts ⟨64 * (i 0).val + 63, by omega⟩
  intro a
  match a with
  | ⟨0, _⟩ => show win0_2.index _ (0 : Fin 3) * 1 ≤ (i 0).val ∧ (i 0).val < win0_2.index _ (0 : Fin 3) * 1 + 1; rw [e0]; dsimp only; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 1 ≤ (i 2).val ∧ (i 2).val < win0_2.index _ (2 : Fin 3) * 1 + 1; rw [e2]; omega

/-- THE OUTPUT ARRAY after the run. -/
theorem final (c : Dev nD) : (dats m 0 c).arrAt 2 cfg0.N = rowTotals m c :=
  (dats m 0 c).arrAt_eq_of_cover 2 (rowTotals m c) (flushed_eq m c) cover

/-- The host lines after the kernel, applied to the output array. -/
theorem tail_eq (c : Dev nD) :
    Pipeline.afterTail₀ cfgs (dats m) 0 (V0 m) [hostOps1] c main_v3 = lossOf (∑ i : S2x1x1.Idx, rowTotals m c i) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v0) = rowTotals m c :=
    (Pipeline.withArrays_arr spec0 launch0.win.arr_inj c _ _ 2).trans (final m c)
  rw [hw]
  funext i
  have hsum : Host.reduceAdd (F := Ideal) (rowTotals m c) (constant S_ .f32 0x00000000#32) reducesTo_S2x1x1_S_d0_1_2 h_S_ i
      = Ideal.ofBits .f32 0x00000000#32 + ∑ j : S2x1x1.Idx, rowTotals m c j := by
    simp only [Host.reduceAdd, Ideal.hostReduceAdd_def]
    exact Ideal.hostReduceAdd_total reducesTo_S2x1x1_S_d0_1_2 (fun b => b.elim0) (rowTotals m c) _ i
  show Ideal.ofBits .f32 0x3F800000#32 - Ideal.div (Host.reduceAdd (F := Ideal) (rowTotals m c)
    (constant S_ .f32 0x00000000#32) reducesTo_S2x1x1_S_d0_1_2 h_S_ i) (Ideal.ofBits .f32 0x49800000#32) = _
  rw [hsum]
  rfl

/-- The output array's two entries, indexed by the row of the grid. -/
def rowsEquiv : S2x1x1.Idx ≃ Fin 2 where
  toFun i := i 0
  invFun b := ix3 b (0 : Fin 1) (0 : Fin 1)
  left_inv i := by
    funext a
    match a with
    | ⟨0, _⟩ => rfl
    | ⟨1, _⟩ => exact Fin.ext (by show 0 = (i 1).val; have : (i 1).val < 1 := (i 1).isLt; omega)
    | ⟨2, _⟩ => exact Fin.ext (by show 0 = (i 2).val; have : (i 2).val < 1 := (i 2).isLt; omega)
  right_inv _ := rfl

/-- THE TOTAL COUNT: the output's two entries add up to the number of counted rows of the whole arrays — each
    entry is the count of its 64 points, each point's count that of its tile, and the tiles partition the rows. -/
theorem total_eq (c : Dev nD) :
    ∑ i : S2x1x1.Idx, rowTotals m c i
      = ∑ p : Fin 128, ∑ q : Fin 8192, rowOK (n0 := 128) (n1 := 8192) (m ((c : Thread nD τ).loc main_arg1))
          (m ((c : Thread nD τ).loc main_arg0)) p q := by
  rw [regroup, ← Equiv.sum_comp rowsEquiv.symm (rowTotals m c)]
  refine Finset.sum_congr rfl fun b _ => ?_
  show ∑ l ∈ Finset.range 64, cnt m c (64 * b.val + l) = _
  rw [Finset.sum_range]
  refine Finset.sum_congr rfl fun l _ => ?_
  have hN : cfg0.N = 128 := N_0
  have hb := b.isLt
  have hl := l.isLt
  have h : 64 * b.val + l.val < cfg0.N := by omega
  rw [cnt_of_lt m c _ h]
  exact blockCount_eq m c ⟨_, h⟩ b l rfl

/-- THE RUN, READ: the result is the loss of the total count, and the arguments end unchanged. -/
theorem run : θ_run defs (onTc (τ := τ) (main (F := Ideal))) ⟨m, fun _ => 0, ρ⟩ fun r => ∀ c : Dev nD,
      r.2.mem ((c.tc : Thread nD τ).loc main_v3) = lossOf (∑ i : S2x1x1.Idx, rowTotals m c i)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference, read back.  It thresholds the predictions, compares them with the labels entry by entry, folds
  the eight truth bits of each row with "and", turns each row's bit into a number, adds these numbers over all
  128 × 8192 rows starting from zero, divides by 2^20 and subtracts the quotient from 1.  Hence its result is the
  loss of the number of counted rows.
-/
import proofs.«148461_j46325517254719_2_alg».proof.Proof.Gen.ReferenceIdeal.Read
import proofs.«148461_j46325517254719_2_alg».proof.Proof.RowSpec
import Idealize.ShloMosaic.Lib.ValueIdx
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read Cert.SSAcc

/-- An entry's truth bit, as the reference computes it, is the hit bit of (prediction, label). -/
theorem v3_apply (x0 x1 : (⟨S128x8192x8, .f32⟩ : BufTy).Contents (Elt Ideal)) (i : S128x8192x8.Idx) :
    val_main_v3 (F := Ideal) x0 x1 i = hitBit (x1 i) (x0 i) := by
  rw [val_main_v3_apply, val_main_v2_apply, val_main_v1_apply, val_main_v0_apply, val_main_cst_apply]
  show Ideal.cmp .oeq (x0 i) ((((Ideal.cmp .ogt (x1 i) half).toNat : ℝ)) : EReal) = _
  rw [uitofp_bit]
  rfl

/-- Where the index of a row (p, q) sits once the entry coordinate c is put back. -/
theorem lift_row (h : S128x8192x8.Reduces [2] S128x8192) (p : Fin 128) (q : Fin 8192) (c : Fin 8) :
    h.lift (ix2 p q) c = ix3 p q c := by
  funext a; match a with | ⟨0, _⟩ => exact Fin.ext rfl | ⟨1, _⟩ => exact Fin.ext rfl | ⟨2, _⟩ => exact Fin.ext rfl

/-- A row's number, as the reference computes it (the "and" of its eight bits, converted), is the row's count. -/
theorem v5_apply (x0 x1 : (⟨S128x8192x8, .f32⟩ : BufTy).Contents (Elt Ideal)) (p : Fin 128) (q : Fin 8192) :
    val_main_v5 (F := Ideal) x0 x1 (ix2 p q) = rowOK (n0 := 128) (n1 := 8192) x1 x0 p q := by
  have hR : S128x8192x8.Reduces [2] S128x8192 := by decide
  rw [val_main_v5_apply, rowOK_eq_fold]
  show (((val_main_v4 (F := Ideal) x0 x1 (ix2 p q)).toNat : ℝ) : EReal) = _
  rw [uitofp_bit]
  refine congrArg ind ?_
  unfold val_main_v4
  refine (Host.reduce_eq_fold_single IntOp.andi _ _ reducesTo_S128x8192x8_S128x8192_d2 hR h_S_ (ix2 p q)).trans ?_
  show (Finset.univ : Finset (Fin 8)).fold IntOp.andi 1#1 (fun c => val_main_v3 (F := Ideal) x0 x1 (hR.lift (ix2 p q) c)) = _
  refine congrArg (fun f => (Finset.univ : Finset (Fin 8)).fold IntOp.andi 1#1 f) (funext fun (c : Fin 8) => ?_)
  exact (congrArg (val_main_v3 (F := Ideal) x0 x1) (lift_row hR p q c)).trans (v3_apply x0 x1 (ix3 p q c))

/-- THE REFERENCE'S VALUE: the loss of the number of counted rows of the whole arrays. -/
theorem result_eq (x0 x1 : (⟨S128x8192x8, .f32⟩ : BufTy).Contents (Elt Ideal)) :
    val_main_v8 (F := Ideal) x0 x1
      = lossOf (∑ p : Fin 128, ∑ q : Fin 8192, rowOK (n0 := 128) (n1 := 8192) x1 x0 p q) := by
  funext i
  rw [val_main_v8_apply, val_main_v7_apply, val_main_v6_apply, val_main_cst_2_apply, val_main_cst_1_apply,
    val_main_cst_0_apply, sum_idx2]
  unfold lossOf
  simp only [Ideal.subf_def, Ideal.hostDivf_def, Ideal.ofBits_def]
  refine congrArg (fun z => Ideal.ofBits .f32 0x3F800000#32 - Ideal.div (Ideal.ofBits .f32 0x00000000#32 + z) (Ideal.ofBits .f32 0x49800000#32)) ?_
  exact Finset.sum_congr rfl fun p _ => Finset.sum_congr rfl fun q _ => v5_apply x0 x1 p q

end Cert.ReferenceIdeal.RefValue

end
-- ==== Proof.lean ====
/-
  The claim, assembled.  Both programs compute the loss 1 − (number of counted rows) / 2^20 of two
  128 × 8192 × 8 arrays, labels and predictions; a row is counted when each of its eight labels equals the
  thresholded prediction beside it.

  The reference thresholds and compares entry by entry, folds each row's eight truth bits with "and", converts
  the row's bit to a number and adds all 128 × 8192 numbers.  The kernel walks a 2 × 64 grid of tiles of
  64 × 128 rows; at a tile it adds each row's eight comparisons as numbers and asks whether the sum is 8 —
  the same bit, since eight numbers that are each 0 or 1 add up to 8 exactly when all are 1 —, adds the tile's
  row numbers to a running count that is zeroed at the start of each of the two rows of the grid, and at the end
  of a row of the grid writes the running count to one of two output entries; the host then adds the two
  entries.  The tiles partition the rows of the arrays, and addition of extended reals is commutative and
  associative, so the two totals agree whatever the values in the arrays; the division by 2^20 and the
  subtraction from 1 are the same operations on the same words in both programs.

  The three frame claims are the programs' runs with the values forgotten, and the idealization rewrote nothing.
-/
import proofs.«148461_j46325517254719_2_alg».proof.Defs
import proofs.«148461_j46325517254719_2_alg».proof.Proof.Gen.Kernel
import proofs.«148461_j46325517254719_2_alg».proof.Proof.Gen.Kernel.Skeleton
import proofs.«148461_j46325517254719_2_alg».proof.Proof.Gen.Kernel.Launch
import proofs.«148461_j46325517254719_2_alg».proof.Proof.Gen.Kernel.Points
import proofs.«148461_j46325517254719_2_alg».proof.Proof.Gen.Kernel.Frame
import proofs.«148461_j46325517254719_2_alg».proof.Proof.Gen.KernelIdeal
import proofs.«148461_j46325517254719_2_alg».proof.Proof.Gen.KernelIdeal.Skeleton
import proofs.«148461_j46325517254719_2_alg».proof.Proof.Gen.KernelIdeal.Launch
import proofs.«148461_j46325517254719_2_alg».proof.Proof.Gen.KernelIdeal.Points
import proofs.«148461_j46325517254719_2_alg».proof.Proof.Gen.KernelIdeal.Frame
import proofs.«148461_j46325517254719_2_alg».proof.Proof.Gen.ReferenceIdeal
import proofs.«148461_j46325517254719_2_alg».proof.Proof.Gen.Pre_finite_inputs
import proofs.«148461_j46325517254719_2_alg».proof.Proof.Gen.ReferenceIdeal.Run
import proofs.«148461_j46325517254719_2_alg».proof.Proof.Gen.ReferenceIdeal.Read
import proofs.«148461_j46325517254719_2_alg».proof.Proof.KernelValue
import proofs.«148461_j46325517254719_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the loss of the number of counted rows of arrays that agree. -/
theorem algebraic : Cert.algebraic_KernelIdeal_ReferenceIdeal := by
  intro m ρ m' ρ' _ hagree
  refine ⟨fun c => Cert.SSAcc.lossOf (∑ i : Cert.KernelIdeal.S2x1x1.Idx, Cert.KernelIdeal.KernelValue.rowTotals m c i),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]
  exact congrArg Cert.SSAcc.lossOf (Cert.KernelIdeal.KernelValue.total_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
